-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S400x512 : Shape := ⟨2, ![400, 512]⟩
abbrev S400 : Shape := ⟨1, ![400]⟩
abbrev S300x400 : Shape := ⟨2, ![300, 400]⟩
abbrev S300 : Shape := ⟨1, ![300]⟩
abbrev S64x300 : Shape := ⟨2, ![64, 300]⟩
abbrev S64 : Shape := ⟨1, ![64]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S400x512 : S_.BroadcastsInDim S400x512 (![] : Fin 0 → Fin S400x512.rank)
  reducesTo_S400x512_S_d0_1 : S400x512.ReducesTo [0, 1] S_
  bcast_S_S400 : S_.BroadcastsInDim S400 (![] : Fin 0 → Fin S400.rank)
  reducesTo_S400_S_d0 : S400.ReducesTo [0] S_
  bcast_S_S300x400 : S_.BroadcastsInDim S300x400 (![] : Fin 0 → Fin S300x400.rank)
  reducesTo_S300x400_S_d0_1 : S300x400.ReducesTo [0, 1] S_
  bcast_S_S300 : S_.BroadcastsInDim S300 (![] : Fin 0 → Fin S300.rank)
  reducesTo_S300_S_d0 : S300.ReducesTo [0] S_
  bcast_S_S64x300 : S_.BroadcastsInDim S64x300 (![] : Fin 0 → Fin S64x300.rank)
  reducesTo_S64x300_S_d0_1 : S64x300.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S300 .f32) (main_arg5 : FVec F S64x300 .f32) (main_arg6 : FVec F S64 .f32) (main_v13 : IVec S_ 1) (main_v16 : IVec S300x400 1) : IVec S_ 1 :=
  let main_c_5 : IVec S_ 1 := constantI S_ 1 1#1
  let main_v17 : IVec S_ 1 := (fun x v => Host.reduce IntOp.andi x v reducesTo_S300x400_S_d0_1 h_S_) main_v16 main_c_5
  let main_v18 : IVec S_ 1 := andi main_v13 main_v17
  let main_v19 : FVec F S300 .f32 := Host.absf main_arg4
  let main_cst_6 : FVec F S_ .f32 := constant S_ .f32 0x7F800000#32
  let main_v20 : FVec F S300 .f32 := broadcastInDim S300 ![] bcast_S_S300 main_cst_6
  let main_v21 : IVec S300 1 := cmpf .olt main_v19 main_v20
  let main_c_7 : IVec S_ 1 := constantI S_ 1 1#1
  let main_v22 : IVec S_ 1 := (fun x v => Host.reduce IntOp.andi x v reducesTo_S300_S_d0 h_S_) main_v21 main_c_7
  let main_v23 : IVec S_ 1 := andi main_v18 main_v22
  let main_v24 : FVec F S64x300 .f32 := Host.absf main_arg5
  let main_cst_8 : FVec F S_ .f32 := constant S_ .f32 0x7F800000#32
  let main_v25 : FVec F S64x300 .f32 := broadcastInDim S64x300 ![] bcast_S_S64x300 main_cst_8
  let main_v26 : IVec S64x300 1 := cmpf .olt main_v24 main_v25
  let main_c_9 : IVec S_ 1 := constantI S_ 1 1#1
  let main_v27 : IVec S_ 1 := (fun x v => Host.reduce IntOp.andi x v reducesTo_S64x300_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S131072x512 .f32) (main_arg1 : FVec F S400x512 .f32) (main_arg2 : FVec F S400 .f32) (main_arg3 : FVec F S300x400 .f32) (main_arg4 : FVec F S300 .f32) (main_arg5 : FVec F S64x300 .f32) (main_arg6 : FVec F S64 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S400x512 .f32 := Host.absf main_arg1
  let main_cst_0 : FVec F S_ .f32 := constant S_ .f32 0x7F800000#32
  let main_v5 : FVec F S400x512 .f32 := broadcastInDim S400x512 ![] bcast_S_S400x512 main_cst_0
  let main_v6 : IVec S400x512 1 := cmpf .olt main_v4 main_v5
  let main_c_1 : IVec S_ 1 := constantI S_ 1 1#1
  let main_v7 : IVec S_ 1 := (fun x v => Host.reduce IntOp.andi x v reducesTo_S400x512_S_d0_1 h_S_) main_v6 main_c_1
  let main_v8 : IVec S_ 1 := andi main_v3 main_v7
  let main_v9 : FVec F S400 .f32 := Host.absf main_arg2
  let main_cst_2 : FVec F S_ .f32 := constant S_ .f32 0x7F800000#32
  let main_v10 : FVec F S400 .f32 := broadcastInDim S400 ![] bcast_S_S400 main_cst_2
  let main_v11 : IVec S400 1 := cmpf .olt main_v9 main_v10
  let main_c_3 : IVec S_ 1 := constantI S_ 1 1#1
  let main_v12 : IVec S_ 1 := (fun x v => Host.reduce IntOp.andi x v reducesTo_S400_S_d0 h_S_) main_v11 main_c_3
  let main_v13 : IVec S_ 1 := andi main_v8 main_v12
  let main_v14 : FVec F S300x400 .f32 := Host.absf main_arg3
  let main_cst_4 : FVec F S_ .f32 := constant S_ .f32 0x7F800000#32
  let main_v15 : FVec F S300x400 .f32 := broadcastInDim S300x400 ![] bcast_S_S300x400 main_cst_4
  let main_v16 : IVec S300x400 1 := cmpf .olt main_v14 main_v15
  fn_part1 (F := F) main_arg4 main_arg5 main_arg6 main_v13 main_v16
-- ==== Kernel.lean ====
abbrev S131072x512 : Shape := ⟨2, ![131072, 512]⟩
abbrev S400x512 : Shape := ⟨2, ![400, 512]⟩
abbrev S400 : Shape := ⟨1, ![400]⟩
abbrev S300x400 : Shape := ⟨2, ![300, 400]⟩
abbrev S300 : Shape := ⟨1, ![300]⟩
abbrev S64x300 : Shape := ⟨2, ![64, 300]⟩
abbrev S64 : Shape := ⟨1, ![64]⟩
abbrev S512x400 : Shape := ⟨2, ![512, 400]⟩
abbrev S400x300 : Shape := ⟨2, ![400, 300]⟩
abbrev S300x64 : Shape := ⟨2, ![300, 64]⟩
abbrev S131072x64 : Shape := ⟨2, ![131072, 64]⟩
abbrev S4096x512 : Shape := ⟨2, ![4096, 512]⟩
abbrev S4096x64 : Shape := ⟨2, ![4096, 64]⟩
abbrev S4096x400 : Shape := ⟨2, ![4096, 400]⟩
abbrev S1x400 : Shape := ⟨2, ![1, 400]⟩
abbrev S4096x300 : Shape := ⟨2, ![4096, 300]⟩
abbrev S1x300 : Shape := ⟨2, ![1, 300]⟩
abbrev S1x64 : Shape := ⟨2, ![1, 64]⟩
abbrev S4096 : Shape := ⟨1, ![4096]⟩
abbrev S4096x1 : Shape := ⟨2, ![4096, 1]⟩

abbrev nBuf : Space → Nat
  | .hbm => 13
  | .vmem => 10
  | .smem => 0
  | _ => 0

abbrev bufTy : (tb : Table) → Fin (tcTables nBuf tb) → BufTy
  | .hbm, ⟨0, _⟩ => ⟨S131072x512, .f32⟩
  | .hbm, ⟨1, _⟩ => ⟨S400x512, .f32⟩
  | .hbm, ⟨2, _⟩ => ⟨S400, .f32⟩
  | .hbm, ⟨3, _⟩ => ⟨S300x400, .f32⟩
  | .hbm, ⟨4, _⟩ => ⟨S300, .f32⟩
  | .hbm, ⟨5, _⟩ => ⟨S64x300, .f32⟩
  | .hbm, ⟨6, _⟩ => ⟨S64, .f32⟩
  | .hbm, ⟨7, _⟩ => ⟨S512x400, .f32⟩
  | .hbm, ⟨8, _⟩ => ⟨S512x400, .bf16⟩
  | .hbm, ⟨9, _⟩ => ⟨S400x300, .f32⟩
  | .hbm, ⟨10, _⟩ => ⟨S400x300, .bf16⟩
  | .hbm, ⟨11, _⟩ => ⟨S300x64, .f32⟩
  | .hbm, ⟨12, _⟩ => ⟨S131072x64, .f32⟩
  | .local _ .vmem, ⟨0, _⟩ => ⟨S4096x512, .f32⟩
  | .local _ .vmem, ⟨1, _⟩ => ⟨S4096x512, .f32⟩
  | .local _ .vmem, ⟨2, _⟩ => ⟨S512x400, .bf16⟩
  | .local _ .vmem, ⟨3, _⟩ => ⟨S400, .f32⟩
  | .local _ .vmem, ⟨4, _⟩ => ⟨S400x300, .bf16⟩
  | .local _ .vmem, ⟨5, _⟩ => ⟨S300, .f32⟩
  | .local _ .vmem, ⟨6, _⟩ => ⟨S300x64, .f32⟩
  | .local _ .vmem, ⟨7, _⟩ => ⟨S64, .f32⟩
  | .local _ .vmem, ⟨8, _⟩ => ⟨S4096x64, .f32⟩
  | .local _ .vmem, ⟨9, _⟩ => ⟨S4096x64, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x400 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S400 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S400x300 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S300x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S400x512_S512x400_1_0 : S400x512.Transposes [1, 0] S512x400
  bitsLt_bf16_f32 : FTy.bits .bf16 < FTy.bits .f32
  transposes_S300x400_S400x300_1_0 : S300x400.Transposes [1, 0] S400x300
  transposes_S64x300_S300x64_1_0 : S64x300.Transposes [1, 0] S300x64
  inb_S4096x512_S4096x512_0_0 : ∀ a, (![0, 0] : Fin 2 → Nat) a + S4096x512.size a ≤ S4096x512.size a
  h_S4096x512 : 0 < S4096x512.numel
  inb_S512x400_S512x400_0_0 : ∀ a, (![0, 0] : Fin 2 → Nat) a + S512x400.size a ≤ S512x400.size a
  h_S512x400 : 0 < S512x400.numel
  shapeCasts_S512x400_S512x400 : S512x400.ShapeCasts S512x400
  inb_S400_S400_0 : ∀ a, (![0] : Fin 1 → Nat) a + S400.size a ≤ S400.size a
  h_S400 : 0 < S400.numel
  shapeCasts_S400_S1x400 : S400.ShapeCasts S1x400
  broadcasts_S1x400_S4096x400 : S1x400.Broadcasts S4096x400
  inb_S400x300_S400x300_0_0 : ∀ a, (![0, 0] : Fin 2 → Nat) a + S400x300.size a ≤ S400x300.size a
  h_S400x300 : 0 < S400x300.numel
  shapeCasts_S400x300_S400x300 : S400x300.ShapeCasts S400x300
  inb_S300_S300_0 : ∀ a, (![0] : Fin 1 → Nat) a + S300.size a ≤ S300.size a
  h_S300 : 0 < S300.numel
  shapeCasts_S300_S1x300 : S300.ShapeCasts S1x300
  broadcasts_S1x300_S4096x300 : S1x300.Broadcasts S4096x300
  inb_S300x64_S300x64_0_0 : ∀ a, (![0, 0] : Fin 2 → Nat) a + S300x64.size a ≤ S300x64.size a
  h_S300x64 : 0 < S300x64.numel
  shapeCasts_S300x64_S300x64 : S300x64.ShapeCasts S300x64
  inb_S64_S64_0 : ∀ a, (![0] : Fin 1 → Nat) a + S64.size a ≤ S64.size a
  h_S64 : 0 < S64.numel
  shapeCasts_S64_S1x64 : S64.ShapeCasts S1x64
  broadcasts_S1x64_S4096x64 : S1x64.Broadcasts S4096x64
  iota_S4096x64_d1_w32 : S4096x64.Iotas .tc 32 [1]
  reduces_S4096x64_S4096 : S4096x64.Reduces [1] S4096
  shapeCasts_S4096_S4096x1 : S4096.ShapeCasts S4096x1
  broadcasts_S4096x1_S4096x64 : S4096x1.Broadcasts S4096x64
  inb_S4096x64_S4096x64_0_0 : ∀ a, (![0, 0] : Fin 2 → Nat) a + S4096x64.size a ≤ S4096x64.size a
  h_S4096x64 : 0 < S4096x64.numel
  dot_S4096x512_S512x400_S4096x400_1_0_0_1_n_n_wf : DotDims.WF S4096x512 S512x400 S4096x400 [1] [0] [0] [1] [] []
  dot_S4096x400_S400x300_S4096x300_1_0_0_1_n_n_wf : DotDims.WF S4096x400 S400x300 S4096x300 [1] [0] [0] [1] [] []
  dot_S4096x300_S300x64_S4096x64_1_0_0_1_n_n_wf : DotDims.WF S4096x300 S300x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S131072x512.size a
  hwx0_0 : ∀ i : grid0.Coords, EltTy.bits .f32 = 32 ∨ (Rect.block (s := S131072x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x400.size a ≤ S512x400.size a
  hwx0_1 : ∀ i : grid0.Coords, EltTy.bits .bf16 = 32 ∨ (Rect.block (s := S512x400) S512x400.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S400.size a ≤ S400.size a
  hwx0_2 : ∀ i : grid0.Coords, EltTy.bits .f32 = 32 ∨ (Rect.block (s := S400) S400.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S400x300.size a ≤ S400x300.size a
  hwx0_3 : ∀ i : grid0.Coords, EltTy.bits .bf16 = 32 ∨ (Rect.block (s := S400x300) S400x300.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S300.size a ≤ S300.size a
  hwx0_4 : ∀ i : grid0.Coords, EltTy.bits .f32 = 32 ∨ (Rect.block (s := S300) S300.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S300x64.size a ≤ S300x64.size a
  hwx0_5 : ∀ i : grid0.Coords, EltTy.bits .f32 = 32 ∨ (Rect.block (s := S300x64) S300x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x64.size a ≤ S131072x64.size a
  hwx0_7 : ∀ i : grid0.Coords, EltTy.bits .f32 = 32 ∨ (Rect.block (s := S131072x64) S4096x64.size (cc0_transform_7 i) (hinb0_7 i)).WholeWords (EltTy.packing .f32)

variable [Facts₀]

def dot_S4096x512_S512x400_S4096x400_1_0_0_1_n_n : DotDims S4096x512 S512x400 S4096x400 where
  lhsContracting := [1]
  rhsContracting := [0]
  lhsNonContracting := [0]
  rhsNonContracting := [1]
  lhsBatch := []
  rhsBatch := []
  wf := dot_S4096x512_S512x400_S4096x400_1_0_0_1_n_n_wf
def dot_S4096x400_S400x300_S4096x300_1_0_0_1_n_n : DotDims S4096x400 S400x300 S4096x300 where
  lhsContracting := [1]
  rhsContracting := [0]
  lhsNonContracting := [0]
  rhsNonContracting := [1]
  lhsBatch := []
  rhsBatch := []
  wf := dot_S4096x400_S400x300_S4096x300_1_0_0_1_n_n_wf
def dot_S4096x300_S300x64_S4096x64_1_0_0_1_n_n : DotDims S4096x300 S300x64 S4096x64 where
  lhsContracting := [1]
  rhsContracting := [0]
  lhsNonContracting := [0]
  rhsNonContracting := [1]
  lhsBatch := []
  rhsBatch := []
  wf := dot_S4096x300_S300x64_S4096x64_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x400.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S400.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S400x300.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S300.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S300x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S4096x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S131072x512 : Shape := ⟨2, ![131072, 512]⟩
abbrev S400x512 : Shape := ⟨2, ![400, 512]⟩
abbrev S400 : Shape := ⟨1, ![400]⟩
abbrev S300x400 : Shape := ⟨2, ![300, 400]⟩
abbrev S300 : Shape := ⟨1, ![300]⟩
abbrev S64x300 : Shape := ⟨2, ![64, 300]⟩
abbrev S64 : Shape := ⟨1, ![64]⟩
abbrev S512x400 : Shape := ⟨2, ![512, 400]⟩
abbrev S131072x400 : Shape := ⟨2, ![131072, 400]⟩
abbrev S1x400 : Shape := ⟨2, ![1, 400]⟩
abbrev S_ : Shape := ⟨0, ![]⟩
abbrev S400x300 : Shape := ⟨2, ![400, 300]⟩
abbrev S131072x300 : Shape := ⟨2, ![131072, 300]⟩
abbrev S1x300 : Shape := ⟨2, ![1, 300]⟩
abbrev S300x64 : Shape := ⟨2, ![300, 64]⟩
abbrev S131072x64 : Shape := ⟨2, ![131072, 64]⟩
abbrev S1x64 : Shape := ⟨2, ![1, 64]⟩
abbrev S131072x63 : Shape := ⟨2, ![131072, 63]⟩
abbrev S131072x1 : Shape := ⟨2, ![131072, 1]⟩
abbrev S131072 : Shape := ⟨1, ![131072]⟩

abbrev nBuf : Space → Nat
  | .hbm => 53
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S400x512, .f32⟩
  | .hbm, ⟨2, _⟩ => ⟨S400, .f32⟩
  | .hbm, ⟨3, _⟩ => ⟨S300x400, .f32⟩
  | .hbm, ⟨4, _⟩ => ⟨S300, .f32⟩
  | .hbm, ⟨5, _⟩ => ⟨S64x300, .f32⟩
  | .hbm, ⟨6, _⟩ => ⟨S64, .f32⟩
  | .hbm, ⟨7, _⟩ => ⟨S512x400, .f32⟩
  | .hbm, ⟨8, _⟩ => ⟨S131072x400, .f32⟩
  | .hbm, ⟨9, _⟩ => ⟨S1x400, .f32⟩
  | .hbm, ⟨10, _⟩ => ⟨S131072x400, .f32⟩
  | .hbm, ⟨11, _⟩ => ⟨S131072x400, .f32⟩
  | .hbm, ⟨12, _⟩ => ⟨S_, .f32⟩
  | .hbm, ⟨13, _⟩ => ⟨S131072x400, .f32⟩
  | .hbm, ⟨14, _⟩ => ⟨S131072x400, .f32⟩
  | .hbm, ⟨15, _⟩ => ⟨S400x300, .f32⟩
  | .hbm, ⟨16, _⟩ => ⟨S131072x300, .f32⟩
  | .hbm, ⟨17, _⟩ => ⟨S1x300, .f32⟩
  | .hbm, ⟨18, _⟩ => ⟨S131072x300, .f32⟩
  | .hbm, ⟨19, _⟩ => ⟨S131072x300, .f32⟩
  | .hbm, ⟨20, _⟩ => ⟨S_, .f32⟩
  | .hbm, ⟨21, _⟩ => ⟨S131072x300, .f32⟩
  | .hbm, ⟨22, _⟩ => ⟨S131072x300, .f32⟩
  | .hbm, ⟨23, _⟩ => ⟨S300x64, .f32⟩
  | .hbm, ⟨24, _⟩ => ⟨S131072x64, .f32⟩
  | .hbm, ⟨25, _⟩ => ⟨S1x64, .f32⟩
  | .hbm, ⟨26, _⟩ => ⟨S131072x64, .f32⟩
  | .hbm, ⟨27, _⟩ => ⟨S131072x64, .f32⟩
  | .hbm, ⟨28, _⟩ => ⟨S131072x63, .f32⟩
  | .hbm, ⟨29, _⟩ => ⟨S131072x63, .f32⟩
  | .hbm, ⟨30, _⟩ => ⟨S131072x1, .f32⟩
  | .hbm, ⟨31, _⟩ => ⟨S131072x1, .f32⟩
  | .hbm, ⟨32, _⟩ => ⟨S131072x1, .f32⟩
  | .hbm, ⟨33, _⟩ => ⟨S_, .f32⟩
  | .hbm, ⟨34, _⟩ => ⟨S131072x1, .f32⟩
  | .hbm, ⟨35, _⟩ => ⟨S131072x1, .f32⟩
  | .hbm, ⟨36, _⟩ => ⟨S_, .f32⟩
  | .hbm, ⟨37, _⟩ => ⟨S131072x1, .f32⟩
  | .hbm, ⟨38, _⟩ => ⟨S131072x1, .f32⟩
  | .hbm, ⟨39, _⟩ => ⟨S_, .f32⟩
  | .hbm, ⟨40, _⟩ => ⟨S131072x63, .f32⟩
  | .hbm, ⟨41, _⟩ => ⟨S131072x63, .i1⟩
  | .hbm, ⟨42, _⟩ => ⟨S_, .f32⟩
  | .hbm, ⟨43, _⟩ => ⟨S_, .f32⟩
  | .hbm, ⟨44, _⟩ => ⟨S131072x63, .f32⟩
  | .hbm, ⟨45, _⟩ => ⟨S131072x63, .f32⟩
  | .hbm, ⟨46, _⟩ => ⟨S_, .f32⟩
  | .hbm, ⟨47, _⟩ => ⟨S131072, .f32⟩
  | .hbm, ⟨48, _⟩ => ⟨S131072x1, .f32⟩
  | .hbm, ⟨49, _⟩ => ⟨S131072x63, .f32⟩
  | .hbm, ⟨50, _⟩ => ⟨S131072x63, .f32⟩
  | .hbm, ⟨51, _⟩ => ⟨S131072x63, .f32⟩
  | .hbm, ⟨52, _⟩ => ⟨S131072x64, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call1_cst : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_cst_0 : Ref sig .tc := ⟨.hbm, 36, rfl⟩
abbrev main_v24 : Ref sig .tc := ⟨.hbm, 37, rfl⟩
abbrev main_v25 : Ref sig .tc := ⟨.hbm, 38, rfl⟩
abbrev main_cst_1 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_call2_v0 : Ref sig .tc := ⟨.hbm, 43, rfl⟩
abbrev main_call2_v1 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]

class Facts₀ : Prop where
  transposes_S400x512_S512x400_1_0 : S400x512.Transposes [1, 0] S512x400
  bcast_S400_S1x400_1 : S400.BroadcastsInDim S1x400 (![1] : Fin 1 → Fin S1x400.rank)
  bcast_S1x400_S131072x400_0_1 : S1x400.BroadcastsInDim S131072x400 (![0, 1] : Fin 2 → Fin S131072x400.rank)
  bcast_S_S131072x400 : S_.BroadcastsInDim S131072x400 (![] : Fin 0 → Fin S131072x400.rank)
  transposes_S300x400_S400x300_1_0 : S300x400.Transposes [1, 0] S400x300
  bcast_S300_S1x300_1 : S300.BroadcastsInDim S1x300 (![1] : Fin 1 → Fin S1x300.rank)
  bcast_S1x300_S131072x300_0_1 : S1x300.BroadcastsInDim S131072x300 (![0, 1] : Fin 2 → Fin S131072x300.rank)
  bcast_S_S131072x300 : S_.BroadcastsInDim S131072x300 (![] : Fin 0 → Fin S131072x300.rank)
  transposes_S64x300_S300x64_1_0 : S64x300.Transposes [1, 0] S300x64
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  slices_S131072x64_S131072x63_0_0 : S131072x64.Slices ![0, 0] S131072x63
  slices_S131072x64_S131072x1_0_63 : S131072x64.Slices ![0, 63] S131072x1
  bcast_S_S131072x1 : S_.BroadcastsInDim S131072x1 (![] : Fin 0 → Fin S131072x1.rank)
  bcast_S_S131072x63 : S_.BroadcastsInDim S131072x63 (![] : Fin 0 → Fin S131072x63.rank)
  reducesTo_S131072x63_S131072_d1 : S131072x63.ReducesTo [1] S131072
  h_S_ : 0 < S_.numel
  bcast_S131072_S131072x1_0 : S131072.BroadcastsInDim S131072x1 (![0] : Fin 1 → Fin S131072x1.rank)
  bcast_S131072x1_S131072x63_0_1 : S131072x1.BroadcastsInDim S131072x63 (![0, 1] : Fin 2 → Fin S131072x63.rank)
  concatenates_S131072x63_S131072x1_S131072x64_d1 : Shape.Concatenates [S131072x63, S131072x1] S131072x64 1
  dot_S131072x512_S512x400_S131072x400_1_0_0_1_n_n_wf : DotDims.WF S131072x512 S512x400 S131072x400 [1] [0] [0] [1] [] []
  dot_S131072x400_S400x300_S131072x300_1_0_0_1_n_n_wf : DotDims.WF S131072x400 S400x300 S131072x300 [1] [0] [0] [1] [] []
  dot_S131072x300_S300x64_S131072x64_1_0_0_1_n_n_wf : DotDims.WF S131072x300 S300x64 S131072x64 [1] [0] [0] [1] [] []

variable [Facts₀]

def dot_S131072x512_S512x400_S131072x400_1_0_0_1_n_n : DotDims S131072x512 S512x400 S131072x400 where
  lhsContracting := [1]
  rhsContracting := [0]
  lhsNonContracting := [0]
  rhsNonContracting := [1]
  lhsBatch := []
  rhsBatch := []
  wf := dot_S131072x512_S512x400_S131072x400_1_0_0_1_n_n_wf
def dot_S131072x400_S400x300_S131072x300_1_0_0_1_n_n : DotDims S131072x400 S400x300 S131072x300 where
  lhsContracting := [1]
  rhsContracting := [0]
  lhsNonContracting := [0]
  rhsNonContracting := [1]
  lhsBatch := []
  rhsBatch := []
  wf := dot_S131072x400_S400x300_S131072x300_1_0_0_1_n_n_wf
def dot_S131072x300_S300x64_S131072x64_1_0_0_1_n_n : DotDims S131072x300 S300x64 S131072x64 where
  lhsContracting := [1]
  rhsContracting := [0]
  lhsNonContracting := [0]
  rhsNonContracting := [1]
  lhsBatch := []
  rhsBatch := []
  wf := dot_S131072x300_S300x64_S131072x64_1_0_0_1_n_n_wf

class Facts : Prop extends Facts₀ where

variable [Facts]
-- ==== Proof.Spec.lean ====
/-
  What the network computes, as one function on the extended reals.

  A row `x` of the input goes through two affine layers each followed by `max(·, 0)`, then a third affine layer:
  `h¹ⱼ = max(Σₖ xₖ·w¹ₖⱼ + b¹ⱼ, 0)`, `h²ⱼ = max(Σₖ h¹ₖ·w²ₖⱼ + b²ⱼ, 0)`, `y_c = Σₖ h²ₖ·w³ₖ_c + b³_c` (64 logits).
  The head maps the logits to the row of the result: the last entry is the logistic function of the last logit; each of the
  first 63 entries is `t = tanh y_c`, divided by the sum `s` of the positive `tanh`s among the first 63 when `t` is
  positive itself, and left as it is otherwise.

  Weights are functions `w k j` of the input coordinate `k` and the output coordinate `j`, biases functions of `j`:
  both programs instantiate them from their own arrays. Sums are finite sums on the extended reals; no law used below
  needs finiteness of a summand (adding `0`, and the two bit facts about a one-bit mask).
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The float literal `0.0`. -/
abbrev zero : EReal := Ideal.ofBits .f32 0x00000000#32

/-- The float literal `1.0`. -/
abbrev one : EReal := Ideal.ofBits .f32 0x3F800000#32

theorem zero_eq : zero = 0 := Ideal.ofBits_zero_f32

theorem one_eq : one = 1 := by
  unfold one
  simp [Ideal.ofBits, Ideal.ieee, -EReal.coe_mul]; norm_num

/-! ## The three layers -/

/-- The first hidden layer of a row `x`: `max(Σₖ xₖ·w¹ₖⱼ + b¹ⱼ, 0)`. -/
def hidden1 (x : Fin 512 → EReal) (w1 : Fin 512 → Fin 400 → EReal) (b1 : Fin 400 → EReal) (j : Fin 400) : EReal :=
  max ((∑ k : Fin 512, x k * w1 k j) + b1 j) zero

/-- The second hidden layer: `max(Σₖ h¹ₖ·w²ₖⱼ + b²ⱼ, 0)`. -/
def hidden2 (x : Fin 512 → EReal) (w1 : Fin 512 → Fin 400 → EReal) (b1 : Fin 400 → EReal)
    (w2 : Fin 400 → Fin 300 → EReal) (b2 : Fin 300 → EReal) (j : Fin 300) : EReal :=
  max ((∑ k : Fin 400, hidden1 x w1 b1 k * w2 k j) + b2 j) zero

/-- The logits: `Σₖ h²ₖ·w³ₖ_c + b³_c`. -/
def logit (x : Fin 512 → EReal) (w1 : Fin 512 → Fin 400 → EReal) (b1 : Fin 400 → EReal)
    (w2 : Fin 400 → Fin 300 → EReal) (b2 : Fin 300 → EReal) (w3 : Fin 300 → Fin 64 → EReal) (b3 : Fin 64 → EReal)
    (c : Fin 64) : EReal :=
  (∑ k : Fin 300, hidden2 x w1 b1 w2 b2 k * w3 k c) + b3 c

/-! ## The head -/

/-- `t` where `t` is positive, `0` elsewhere. -/
def keepPositive (t : EReal) : EReal := Scalar.select (Ideal.cmp .ogt t zero) t zero

/-- The sum of the positive `tanh`s of the first 63 logits. -/
def posSum (y : Fin 64 → EReal) : EReal := ∑ c : Fin 63, keepPositive (Ideal.tanh (y c.castSucc))

/-- Entry `c` of the result row: the logistic function of the last logit; `tanh` of each other, divided by `posSum` where positive. -/
def head (y : Fin 64 → EReal) (c : Fin 64) : EReal :=
  if c.val = 63 then Ideal.logistic (y c)
  else Scalar.select (Ideal.cmp .ogt (Ideal.tanh (y c)) zero) (Ideal.div (Ideal.tanh (y c)) (posSum y)) (Ideal.tanh (y c))

/-! ## The result array -/

/-- THE RESULT as one function of the argument arrays, index by index: entry `(R, c)` is the head, at `c`, of the logits of
    row `R` of the input, the weight matrices read as `w k j = W[j,k]`. -/
def G (X : (⟨2, ![131072, 512]⟩ : Shape).Idx → EReal) (W1 : (⟨2, ![400, 512]⟩ : Shape).Idx → EReal)
    (B1 : (⟨1, ![400]⟩ : Shape).Idx → EReal) (W2 : (⟨2, ![300, 400]⟩ : Shape).Idx → EReal)
    (B2 : (⟨1, ![300]⟩ : Shape).Idx → EReal) (W3 : (⟨2, ![64, 300]⟩ : Shape).Idx → EReal)
    (B3 : (⟨1, ![64]⟩ : Shape).Idx → EReal) : (⟨2, ![131072, 64]⟩ : Shape).Idx → EReal :=
  fun i => head (logit (fun k => X (ix2 (i 0) k)) (fun k j => W1 (ix2 j k)) (fun j => B1 (ix1 j))
    (fun k j => W2 (ix2 j k)) (fun j => B2 (ix1 j)) (fun k j => W3 (ix2 j k)) (fun j => B3 (ix1 j))) (i 1)

/-! ## One-bit masks -/

/-- "is the last column", as a one-bit word. -/
def lastBit (c : Fin 64) : BitVec 1 := if c.val = 63 then 1#1 else 0#1

/-- A 32-bit column number compared with 63 is `lastBit`. -/
theorem cmpi_col_eq_63 : ∀ c : Fin 64, IntOp.cmpi .eq (BitVec.ofNat 32 c.val) 63#32 = lastBit c := by
  decide

/-- Off the last column, "not last and `b`" is `b`. -/
theorem not_zero_and (b : BitVec 1) : IntOp.andi (IntOp.xori 0#1 1#1) b = b := by
  rcases (show b = 0#1 ∨ b = 1#1 from by
    by_cases h : b = 1#1
    · exact Or.inr h
    · exact Or.inl (eq_zero_of_ne_one h)) with rfl | rfl <;> decide

/-- On the last column, "not last and `b`" is false. -/
theorem not_one_and (b : BitVec 1) : IntOp.andi (IntOp.xori 1#1 1#1) b = 0#1 := by
  rcases (show b = 0#1 ∨ b = 1#1 from by
    by_cases h : b = 1#1
    · exact Or.inr h
    · exact Or.inl (eq_zero_of_ne_one h)) with rfl | rfl <;> decide

/-- THE ROW SUM OVER ALL 64 COLUMNS WITH THE LAST MASKED OUT is the sum over the first 63: the masked last term is `0`,
    and off the last column the mask is the positivity test alone. -/
theorem masked_row_sum (f : Fin 64 → EReal) :
    (∑ c : Fin 64, Scalar.select (IntOp.andi (IntOp.xori (lastBit c) 1#1) (Ideal.cmp .ogt (f c) zero)) (f c) zero)
      = ∑ c : Fin 63, keepPositive (f c.castSucc) := by
  rw [Fin.sum_univ_castSucc]
  have hl : lastBit (Fin.last 63) = 1#1 := by decide
  rw [hl, not_one_and, select_zero, zero_eq, add_zero]
  refine Finset.sum_congr rfl fun c _ => ?_
  have hc : lastBit c.castSucc = 0#1 := by
    unfold lastBit
    rw [if_neg]
    have := c.isLt
    show ¬ c.val = 63
    omega
  rw [hc, not_zero_and]
  unfold keepPositive
  rw [zero_eq]

/-- The logistic function as the quotient the reference spells: `1 / (1 + e^(-y))` with the float literal `1.0`. -/
theorem logistic_eq (y : EReal) : Ideal.logistic y = Ideal.div one (one + Ideal.exp (-y)) := by
  rw [one_eq]; rfl

end Cert.Spec

end
-- ==== Proof.RefLogit.lean ====
/-
  The reference's three layers, read at an index.

  The reference transposes each weight matrix and then contracts the row with it, adds the bias broadcast over the rows, and
  takes the maximum with zero. Read at row `R` and output coordinate `j`, the product is `Σₖ x[R,k]·W[j,k]`: the
  transposed matrix at `(k, j)` is the matrix at `(j, k)`. So each stage is the specification's layer with the weights
  `w k j = W[j,k]` and the biases `b j`.
-/
import proofs.«169355_j33698313404512_2_alg».proof.Proof.Gen.ReferenceIdeal.Read
import proofs.«169355_j33698313404512_2_alg».proof.Proof.Spec

noncomputable section

open scoped BigOperators

namespace Cert.RefValue

open Cert.ReferenceIdeal Cert.ReferenceIdeal.Read Cert.Spec
open Idealize.ShloMosaic Idealize.ShloMosaic.ValueIdx

variable (x0 : (⟨S131072x512, .f32⟩ : BufTy).Contents (Elt Ideal)) (x1 : (⟨S400x512, .f32⟩ : BufTy).Contents (Elt Ideal))
  (x2 : (⟨S400, .f32⟩ : BufTy).Contents (Elt Ideal)) (x3 : (⟨S300x400, .f32⟩ : BufTy).Contents (Elt Ideal))
  (x4 : (⟨S300, .f32⟩ : BufTy).Contents (Elt Ideal)) (x5 : (⟨S64x300, .f32⟩ : BufTy).Contents (Elt Ideal))
  (x6 : (⟨S64, .f32⟩ : BufTy).Contents (Elt Ideal))

/-- Row `R` of the input. -/
abbrev rowOf (R : Fin 131072) : Fin 512 → EReal := fun k => x0 (ix2 R k)
/-- The weights as functions of (input coordinate, output coordinate), the biases as functions of the output coordinate. -/
abbrev w1 : Fin 512 → Fin 400 → EReal := fun k j => x1 (ix2 j k)
abbrev b1 : Fin 400 → EReal := fun j => x2 (ix1 j)
abbrev w2 : Fin 400 → Fin 300 → EReal := fun k j => x3 (ix2 j k)
abbrev b2 : Fin 300 → EReal := fun j => x4 (ix1 j)
abbrev w3 : Fin 300 → Fin 64 → EReal := fun k j => x5 (ix2 j k)
abbrev b3 : Fin 64 → EReal := fun j => x6 (ix1 j)

/-- The first hidden layer at `(R, j)`. -/
theorem hidden1_at (R : Fin 131072) (j : Fin 400) :
    val_main_v5 (F := Ideal) x0 x1 x2 (ix2 R j) = hidden1 (rowOf x0 R) (w1 x1) (b1 x2) j := by
  rw [val_main_v5_apply, val_main_v4_apply, val_main_v1_apply, val_main_v3_apply, val_main_v2_apply,
    val_main_call0_v0_apply, val_main_call0_cst_apply]
  have e1 : ∀ k : Fin 512, lidx_main_v1 (ix2 R j) k = ix2 R k := fun k => funext fun a => by
    match a with | ⟨0, _⟩ => rfl | ⟨1, _⟩ => rfl
  have e2 : ∀ k : Fin 512, idx_main_v0 (ridx_main_v1 (ix2 R j) k) = ix2 j k := fun k => funext fun a => by
    match a with | ⟨0, _⟩ => rfl | ⟨1, _⟩ => rfl
  have e3 : idx_main_v2 (idx_main_v3 (ix2 R j)) = ix1 j := funext fun a => by
    match a with | ⟨0, _⟩ => rfl
  simp only [val_main_v0_apply, e1, e2, e3]
  rfl

/-- The second hidden layer at `(R, j)`. -/
theorem hidden2_at (R : Fin 131072) (j : Fin 300) :
    val_main_v11 (F := Ideal) x0 x1 x2 x3 x4 (ix2 R j) = hidden2 (rowOf x0 R) (w1 x1) (b1 x2) (w2 x3) (b2 x4) j := by
  rw [val_main_v11_apply, val_main_v10_apply, val_main_v7_apply, val_main_v9_apply, val_main_v8_apply,
    val_main_call1_v0_apply, val_main_call1_cst_apply]
  have e1 : ∀ k : Fin 400, lidx_main_v7 (ix2 R j) k = ix2 R k := fun k => funext fun a => by
    match a with | ⟨0, _⟩ => rfl | ⟨1, _⟩ => rfl
  have e2 : ∀ k : Fin 400, idx_main_v6 (ridx_main_v7 (ix2 R j) k) = ix2 j k := fun k => funext fun a => by
    match a with | ⟨0, _⟩ => rfl | ⟨1, _⟩ => rfl
  have e3 : idx_main_v8 (idx_main_v9 (ix2 R j)) = ix1 j := funext fun a => by
    match a with | ⟨0, _⟩ => rfl
  simp only [val_main_v6_apply, e1, e2, e3, hidden1_at]
  rfl

/-- The logits at `(R, c)`. -/
theorem logit_at (R : Fin 131072) (c : Fin 64) :
    val_main_v16 (F := Ideal) x0 x1 x2 x3 x4 x5 x6 (ix2 R c)
      = logit (rowOf x0 R) (w1 x1) (b1 x2) (w2 x3) (b2 x4) (w3 x5) (b3 x6) c := by
  rw [val_main_v16_apply, val_main_v13_apply, val_main_v15_apply, val_main_v14_apply]
  have e1 : ∀ k : Fin 300, lidx_main_v13 (ix2 R c) k = ix2 R k := fun k => funext fun a => by
    match a with | ⟨0, _⟩ => rfl | ⟨1, _⟩ => rfl
  have e2 : ∀ k : Fin 300, idx_main_v12 (ridx_main_v13 (ix2 R c) k) = ix2 c k := fun k => funext fun a => by
    match a with | ⟨0, _⟩ => rfl | ⟨1, _⟩ => rfl
  have e3 : idx_main_v14 (idx_main_v15 (ix2 R c)) = ix1 c := funext fun a => by
    match a with | ⟨0, _⟩ => rfl
  simp only [val_main_v12_apply, e1, e2, e3, hidden2_at]
  rfl

end Cert.RefValue

end
-- ==== Proof.RefHead.lean ====
/-
  The reference's head, read at an index, and the reference's result as the specification.

  The reference cuts the logits into the first 63 columns and the last one. On the first 63 it takes `tanh`, sums the
  positive entries of each row (a host sum from the initial value `0`), and divides the positive entries by that sum;
  on the last it computes `1 / (1 + e^(-y))`, the logistic function. The two parts are joined along the columns: entry
  `(R, c)` of the result comes from the first part when `c < 63` and from the second when `c = 63`.
-/
import proofs.«169355_j33698313404512_2_alg».proof.Proof.RefLogit
import Idealize.ShloMosaic.Lib.Pipeline.Value

noncomputable section

open scoped BigOperators

namespace Cert.RefValue

open Cert.ReferenceIdeal Cert.ReferenceIdeal.Read Cert.Spec
open Idealize.ShloMosaic Idealize.ShloMosaic.ValueIdx

variable (x0 : (⟨S131072x512, .f32⟩ : BufTy).Contents (Elt Ideal)) (x1 : (⟨S400x512, .f32⟩ : BufTy).Contents (Elt Ideal))
  (x2 : (⟨S400, .f32⟩ : BufTy).Contents (Elt Ideal)) (x3 : (⟨S300x400, .f32⟩ : BufTy).Contents (Elt Ideal))
  (x4 : (⟨S300, .f32⟩ : BufTy).Contents (Elt Ideal)) (x5 : (⟨S64x300, .f32⟩ : BufTy).Contents (Elt Ideal))
  (x6 : (⟨S64, .f32⟩ : BufTy).Contents (Elt Ideal))

/-- Row `R` of the reference's logits. -/
abbrev logitsOf (R : Fin 131072) : Fin 64 → EReal := fun c => val_main_v16 (F := Ideal) x0 x1 x2 x3 x4 x5 x6 (ix2 R c)

/-- `tanh` of the first 63 columns at `(R, c')` is `tanh` of logit `c'`. -/
theorem tanh_at (R : Fin 131072) (c' : Fin 63) :
    val_main_v18 (F := Ideal) x0 x1 x2 x3 x4 x5 x6 (ix2 R c') = Ideal.tanh (logitsOf x0 x1 x2 x3 x4 x5 x6 R c'.castSucc) := by
  rw [val_main_v18_apply, val_main_v17_apply]
  have e : idx_main_v17 (ix2 R c') = ix2 R c'.castSucc := funext fun a => by
    match a with | ⟨0, _⟩ => rfl | ⟨1, _⟩ => rfl
  rw [e]
  rfl

/-- The positive part of the `tanh` at `(R, c')`. -/
theorem keepPositive_at (R : Fin 131072) (c' : Fin 63) :
    val_main_v28 (F := Ideal) x0 x1 x2 x3 x4 x5 x6 (ix2 R c')
      = keepPositive (Ideal.tanh (logitsOf x0 x1 x2 x3 x4 x5 x6 R c'.castSucc)) := by
  rw [val_main_v28_apply, val_main_v27_apply, val_main_v26_apply, val_main_cst_1_apply, val_main_call2_v1_apply,
    val_main_call2_v0_apply, val_main_cst_2_apply, tanh_at]
  rfl

/-- The row's sum of positive `tanh`s: the host sum starts from `0`, which adds nothing. -/
theorem posSum_at (R : Fin 131072) :
    val_main_v29 (F := Ideal) x0 x1 x2 x3 x4 x5 x6 (ix1 R) = posSum (logitsOf x0 x1 x2 x3 x4 x5 x6 R) := by
  rw [val_main_v29_apply, val_main_cst_3_apply]
  have e : ∀ k : Fin 63, idx_main_v29 (ix1 R) k = ix2 R k := fun k => funext fun a => by
    match a with | ⟨0, _⟩ => rfl | ⟨1, _⟩ => rfl
  simp only [e, keepPositive_at]
  show zero + _ = _
  rw [zero_eq, zero_add]
  rfl

/-- The first 63 entries of the result row. -/
theorem normalized_at (R : Fin 131072) (c' : Fin 63) :
    val_main_v33 (F := Ideal) x0 x1 x2 x3 x4 x5 x6 (ix2 R c')
      = Scalar.select (Ideal.cmp .ogt (Ideal.tanh (logitsOf x0 x1 x2 x3 x4 x5 x6 R c'.castSucc)) zero)
          (Ideal.div (Ideal.tanh (logitsOf x0 x1 x2 x3 x4 x5 x6 R c'.castSucc)) (posSum (logitsOf x0 x1 x2 x3 x4 x5 x6 R)))
          (Ideal.tanh (logitsOf x0 x1 x2 x3 x4 x5 x6 R c'.castSucc)) := by
  rw [val_main_v33_apply, val_main_v27_apply, val_main_v26_apply, val_main_cst_1_apply, val_main_v32_apply,
    val_main_v31_apply, val_main_v30_apply, tanh_at]
  have e : idx_main_v30 (idx_main_v31 (ix2 R c')) = ix1 R := funext fun a => by
    match a with | ⟨0, _⟩ => rfl
  rw [e, posSum_at]
  rfl

/-- The last entry of the result row: the logistic function of the last logit. -/
theorem logistic_at (R : Fin 131072) :
    val_main_v25 (F := Ideal) x0 x1 x2 x3 x4 x5 x6 (ix2 R (0 : Fin 1))
      = Ideal.logistic (logitsOf x0 x1 x2 x3 x4 x5 x6 R (Fin.last 63)) := by
  rw [val_main_v25_apply, val_main_v24_apply, val_main_cst_0_apply, val_main_v23_apply, val_main_v22_apply,
    val_main_cst_apply, val_main_v21_apply, val_main_v20_apply, val_main_v19_apply]
  have e : idx_main_v19 (ix2 R (0 : Fin 1)) = ix2 R (Fin.last 63) := funext fun a => by
    match a with | ⟨0, _⟩ => rfl | ⟨1, _⟩ => rfl
  rw [e, logistic_eq]
  rfl

/-- THE REFERENCE'S RESULT at `(R, c)` is the head of row `R`'s logits at `c`. -/
theorem result_at (R : Fin 131072) (c : Fin 64) :
    val_main_v34 (F := Ideal) x0 x1 x2 x3 x4 x5 x6 (ix2 R c) = head (logitsOf x0 x1 x2 x3 x4 x5 x6 R) c := by
  unfold val_main_v34 head
  by_cases hc : c.val = 63
  · rw [if_pos hc]
    have hcl : c = Fin.last 63 := Fin.ext hc
    subst hcl
    refine (concatenate_pair_apply_right (t := S131072x64) (s₁ := S131072x63) (s₂ := S131072x1) (1 : Fin 2)
      (val_main_v33 (F := Ideal) x0 x1 x2 x3 x4 x5 x6) (val_main_v25 (F := Ideal) x0 x1 x2 x3 x4 x5 x6) _
      (ix2 R (Fin.last 63)) rfl rfl (ix2 R (0 : Fin 1)) (fun b hb => ?_) rfl).trans (logistic_at x0 x1 x2 x3 x4 x5 x6 R)
    match b with
    | ⟨0, _⟩ => rfl
    | ⟨1, _⟩ => exact absurd rfl hb
  · rw [if_neg hc]
    have hlt : c.val < 63 := by have := c.isLt; omega
    have hcs : c = (⟨c.val, hlt⟩ : Fin 63).castSucc := Fin.ext rfl
    refine (concatenate_pair_apply_left (t := S131072x64) (s₁ := S131072x63) (s₂ := S131072x1) (1 : Fin 2)
      (val_main_v33 (F := Ideal) x0 x1 x2 x3 x4 x5 x6) (val_main_v25 (F := Ideal) x0 x1 x2 x3 x4 x5 x6) _
      (ix2 R c) rfl (ix2 R (⟨c.val, hlt⟩ : Fin 63)) (fun b => ?_)).trans ?_
    · match b with
      | ⟨0, _⟩ => rfl
      | ⟨1, _⟩ => rfl
    · rw [normalized_at, ← hcs]

/-- THE REFERENCE IS THE SPECIFICATION: its result array is, index by index, the head of the logits of the index's row. -/
theorem result_eq_G : val_main_v34 (F := Ideal) x0 x1 x2 x3 x4 x5 x6 = Cert.Spec.G x0 x1 x2 x3 x4 x5 x6 := by
  funext i
  obtain ⟨R, c, rfl⟩ : ∃ (R : Fin 131072) (c : Fin 64), i = ix2 R c := ⟨i 0, i 1, eq_ix2 i⟩
  rw [result_at]
  have e : logitsOf x0 x1 x2 x3 x4 x5 x6 R = logit (rowOf x0 R) (w1 x1) (b1 x2) (w2 x3) (b2 x4) (w3 x5) (b3 x6) :=
    funext fun c => logit_at x0 x1 x2 x3 x4 x5 x6 R c
  rw [e]
  rfl

end Cert.RefValue

end
-- ==== Proof.LibPlainDot.lean ====
/-
  A plain matrix product read at an index.

  For the dimension numbers of an `M×K` by `K×N` product (`DotDims.plain`: the left operand contracted on its second
  axis, the right one on its first, no batch axis), the sum over the contraction index of the operands' products at
  result index `(i, j)` is `Σ_k l[i,k]·r[k,j]` over `k : Fin K`. Stated for the sum itself, so that it serves a
  kernel's matrix product into a zero accumulator and a host's `dot_general` alike.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction shape of a plain product has one axis. -/
theorem plain_contr_rank (M K N : Nat) : (DotDims.plain M K N).contr.rank = 1 := rfl

/-- The left operand's index at result `(i, j)` and contraction position `k` is `(i, k)`. -/
theorem plain_lhsIdx (M K N : Nat) (i : Fin M) (j : Fin N) (k : Fin K) :
    (DotDims.plain M K N).lhsIdx (ix2 i j) ((contrEquiv1 (DotDims.plain M K N) K rfl rfl).symm k) = ix2 i k := by
  funext a
  refine Fin.ext ?_
  match a with
  | ⟨0, _⟩ => rfl
  | ⟨1, _⟩ =>
    show (((contrEquiv1 (DotDims.plain M K N) K rfl rfl).symm k) ⟨0, (Nat.one_pos : 0 < 1)⟩ : ℕ) = k.val
    exact contrEquiv1_symm_val (DotDims.plain M K N) K rfl rfl k

/-- The right operand's index at result `(i, j)` and contraction position `k` is `(k, j)`. -/
theorem plain_rhsIdx (M K N : Nat) (i : Fin M) (j : Fin N) (k : Fin K) :
    (DotDims.plain M K N).rhsIdx (ix2 i j) ((contrEquiv1 (DotDims.plain M K N) K rfl rfl).symm k) = ix2 k j := by
  funext a
  refine Fin.ext ?_
  match a with
  | ⟨0, _⟩ =>
    show (((contrEquiv1 (DotDims.plain M K N) K rfl rfl).symm k) ⟨0, (Nat.one_pos : 0 < 1)⟩ : ℕ) = k.val
    exact contrEquiv1_symm_val (DotDims.plain M K N) K rfl rfl k
  | ⟨1, _⟩ => rfl

/-- THE PLAIN PRODUCT'S SUM at `(i, j)`: over `k : Fin K`, of `l[i,k]·r[k,j]`. -/
theorem plain_sum (M K N : Nat) (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  exact Finset.sum_congr rfl fun k _ => by rw [plain_lhsIdx, plain_rhsIdx]

/-- A host `dot_general` with the plain dimension numbers, at the ideal values, read at `(i, j)`. -/
theorem plain_dotGeneral_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    Host.dotGeneral (DotDims.plain M K N) prec l r (ix2 i j) = ∑ k : Fin K, l (ix2 i k) * r (ix2 k j) :=
  (Ideal.dotGeneral_apply (DotDims.plain M K N) prec _ l r (ix2 i j)).trans (plain_sum M K N l r i j)

/-- A kernel's matrix product with the plain dimension numbers into the zero splat, at the ideal values, read at `(i, j)`. -/
theorem plain_matmul_zero_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    matmul (DotDims.plain M K N) prec l r (constant ⟨2, ![M, N]⟩ .f32 0x00000000#32) (ix2 i j)
      = ∑ k : Fin K, l (ix2 i k) * r (ix2 k j) :=
  (Ideal.matmul_constant_zero_apply (DotDims.plain M K N) prec l r (ix2 i j)).trans (plain_sum M K N l r i j)

end Cert.Lib

end
-- ==== Proof.LibAffineRow.lean ====
/-
  An affine layer read at an index, on the extended reals.

  * A bias vector `[N]` cast to one row `[1, N]` and broadcast over `M` rows reads, at `(r, j)`, the bias at `j`.
  * A matrix product of an `M×K` by a `K×N` matrix into a zero accumulator, plus such a bias, reads at `(r, j)`
    `Σₖ l[r,k]·w[k,j] + b[j]`.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«169355_j33698313404512_2_alg».proof.Proof.LibPlainDot

noncomputable section

open scoped BigOperators

namespace Cert.Lib

open Idealize.ShloMosaic Idealize.ShloMosaic.ValueIdx

/-- A bias vector cast to one row and broadcast over the rows, at `(r, j)`, is the bias at `j`. -/
theorem bias_rows_apply {α : Type} {M N : ℕ} (b : (⟨1, ![N]⟩ : Shape).Idx → α)
    (hs : (⟨1, ![N]⟩ : Shape).ShapeCasts ⟨2, ![1, N]⟩) (hb : (⟨2, ![1, N]⟩ : Shape).Broadcasts ⟨2, ![M, N]⟩)
    (r : Fin M) (j : Fin N) :
    broadcastTo ⟨2, ![M, N]⟩ (shapeCast ⟨2, ![1, N]⟩ b hs) hb (ix2 r j) = b (ix1 j) :=
  (broadcastTo_1b_ab_apply (shapeCast ⟨2, ![1, N]⟩ b hs) hb r j).trans (shapeCast_a_1a_apply b hs 0 j)

/-- AN AFFINE LAYER at `(r, j)`: the product into a zero accumulator plus the bias row is `Σₖ l[r,k]·w[k,j] + b[j]`. -/
theorem matmul_bias_apply (M K N : ℕ) {φ₁ φ₂ : FTy} (prec : Option ContractPrecision)
    (l : FVec Ideal ⟨2, ![M, K]⟩ φ₁) (w : FVec Ideal ⟨2, ![K, N]⟩ φ₂) (b : FVec Ideal ⟨1, ![N]⟩ .f32)
    (hs : (⟨1, ![N]⟩ : Shape).ShapeCasts ⟨2, ![1, N]⟩) (hb : (⟨2, ![1, N]⟩ : Shape).Broadcasts ⟨2, ![M, N]⟩)
    (r : Fin M) (j : Fin N) :
    addf (matmul (DotDims.plain M K N) prec l w (constant ⟨2, ![M, N]⟩ .f32 0x00000000#32))
        (broadcastTo ⟨2, ![M, N]⟩ (shapeCast ⟨2, ![1, N]⟩ b hs) hb) (ix2 r j)
      = (∑ k : Fin K, l (ix2 r k) * w (ix2 k j)) + b (ix1 j) := by
  rw [addf_apply, plain_matmul_zero_apply, bias_rows_apply]

end Cert.Lib

end
-- ==== Proof.KernelLogit.lean ====
/-
  The kernel body's logits, read at an index.

  On one block of 4096 rows the body computes, from the block `v0` of the input and the whole (transposed) weight matrices
  and biases, the first hidden layer, the second, and the logits: each a matrix product into a zero accumulator plus a
  bias row, the first two followed by the maximum with zero. A change of float format is the identity on the extended reals,
  and a cast to the same shape changes nothing. Read at row `r` of the block, each layer is the specification's layer of
  the row `k ↦ v0[r,k]` with the weights `w k j = v[k,j]` (the matrices arrive already transposed).
-/
import proofs.«169355_j33698313404512_2_alg».proof.Proof.Gen.KernelIdeal.Skeleton
import proofs.«169355_j33698313404512_2_alg».proof.Proof.Spec
import proofs.«169355_j33698313404512_2_alg».proof.Proof.LibAffineRow

noncomputable section

open scoped BigOperators

namespace Cert.KernelValue

open Cert.KernelIdeal Cert.KernelIdeal.Gen Cert.Spec Cert.Lib
open Idealize.ShloMosaic Idealize.ShloMosaic.ValueIdx

variable (v0 : Vec Ideal S4096x512 .f32) (v2 : Vec Ideal S512x400 .bf16) (v5 : Vec Ideal S400 .f32)
  (v12 : Vec Ideal S400x300 .bf16) (v15 : Vec Ideal S300 .f32) (v21 : Vec Ideal S300x64 .f32) (v24 : Vec Ideal S64 .f32)

/-- The block's first hidden layer, as the body computes it. -/
def blockHidden1 : FVec Ideal S4096x400 .f32 :=
  maximumf
    (addf (matmul dot_S4096x512_S512x400_S4096x400_1_0_0_1_n_n none (truncf .bf16 v0 bitsLt_bf16_f32 : FVec Ideal S4096x512 .bf16)
        (shapeCast S512x400 v2 shapeCasts_S512x400_S512x400 : FVec Ideal S512x400 .bf16) (constant S4096x400 .f32 0x00000000#32))
      (broadcastTo S4096x400 (shapeCast S1x400 v5 shapeCasts_S400_S1x400) broadcasts_S1x400_S4096x400))
    (broadcast S4096x400 (Scalar.ofBits (F := Ideal) .f32 0x00000000#32))

/-- The block's second hidden layer, as the body computes it. -/
def blockHidden2 : FVec Ideal S4096x300 .f32 :=
  maximumf
    (addf (matmul dot_S4096x400_S400x300_S4096x300_1_0_0_1_n_n none (truncf .bf16 (blockHidden1 v0 v2 v5) bitsLt_bf16_f32 : FVec Ideal S4096x400 .bf16)
        (shapeCast S400x300 v12 shapeCasts_S400x300_S400x300 : FVec Ideal S400x300 .bf16) (constant S4096x300 .f32 0x00000000#32))
      (broadcastTo S4096x300 (shapeCast S1x300 v15 shapeCasts_S300_S1x300) broadcasts_S1x300_S4096x300))
    (broadcast S4096x300 (Scalar.ofBits (F := Ideal) .f32 0x00000000#32))

/-- The body's logits are the third affine layer of the second hidden layer. -/
theorem pay2_eq :
    k0_pay2 (F := Ideal) v0 v2 v5 v12 v15 v21 v24
      = addf (matmul dot_S4096x300_S300x64_S4096x64_1_0_0_1_n_n (some .fp32) (blockHidden2 v0 v2 v5 v12 v15)
            (shapeCast S300x64 v21 shapeCasts_S300x64_S300x64 : FVec Ideal S300x64 .f32) (constant S4096x64 .f32 0x00000000#32))
          (broadcastTo S4096x64 (shapeCast S1x64 v24 shapeCasts_S64_S1x64) broadcasts_S1x64_S4096x64) := rfl

/-- The first hidden layer at `(r, j)`. -/
theorem blockHidden1_at (r : Fin 4096) (j : Fin 400) :
    blockHidden1 v0 v2 v5 (ix2 r j)
      = hidden1 (fun k => v0 (ix2 r k)) (fun k j => v2 (ix2 k j)) (fun j => v5 (ix1 j)) j := by
  unfold blockHidden1 hidden1
  rw [maximumf_apply, broadcast_apply]
  refine congrArg (max · zero) ?_
  refine (matmul_bias_apply 4096 512 400 none (truncf .bf16 v0 bitsLt_bf16_f32 : FVec Ideal S4096x512 .bf16)
    (shapeCast S512x400 v2 shapeCasts_S512x400_S512x400 : FVec Ideal S512x400 .bf16) v5 _ _ r j).trans ?_
  rw [shapeCast_self]
  rfl

/-- The second hidden layer at `(r, j)`. -/
theorem blockHidden2_at (r : Fin 4096) (j : Fin 300) :
    blockHidden2 v0 v2 v5 v12 v15 (ix2 r j)
      = hidden2 (fun k => v0 (ix2 r k)) (fun k j => v2 (ix2 k j)) (fun j => v5 (ix1 j))
          (fun k j => v12 (ix2 k j)) (fun j => v15 (ix1 j)) j := by
  unfold blockHidden2 hidden2
  rw [maximumf_apply, broadcast_apply]
  refine congrArg (max · zero) ?_
  refine (matmul_bias_apply 4096 400 300 none (truncf .bf16 (blockHidden1 v0 v2 v5) bitsLt_bf16_f32 : FVec Ideal S4096x400 .bf16)
    (shapeCast S400x300 v12 shapeCasts_S400x300_S400x300 : FVec Ideal S400x300 .bf16) v15 _ _ r j).trans ?_
  rw [shapeCast_self]
  simp only [truncf_apply, blockHidden1_at]

/-- THE BODY'S LOGITS at `(r, c)`: the specification's logits of row `r` of the input block. -/
theorem logits_at (r : Fin 4096) (c : Fin 64) :
    k0_pay2 (F := Ideal) v0 v2 v5 v12 v15 v21 v24 (ix2 r c)
      = logit (fun k => v0 (ix2 r k)) (fun k j => v2 (ix2 k j)) (fun j => v5 (ix1 j))
          (fun k j => v12 (ix2 k j)) (fun j => v15 (ix1 j)) (fun k j => v21 (ix2 k j)) (fun j => v24 (ix1 j)) c := by
  rw [pay2_eq]
  refine (matmul_bias_apply 4096 300 64 (some .fp32) (blockHidden2 v0 v2 v5 v12 v15)
    (shapeCast S300x64 v21 shapeCasts_S300x64_S300x64 : FVec Ideal S300x64 .f32) v24 _ _ r c).trans ?_
  rw [shapeCast_self]
  unfold logit
  simp only [blockHidden2_at]

/-- The body's "is the last column" mask at `(r, c)`. -/
theorem lastMask_at (r : Fin 4096) (c : Fin 64) : k0_pay3 (ix2 r c) = lastBit c := by
  unfold k0_pay3
  show IntOp.cmpi .eq (iota .tc S4096x64 32 [1] iota_S4096x64_d1_w32 (ix2 r c)) (63#32) = lastBit c
  rw [iota_single_apply]
  exact cmpi_col_eq_63 c

end Cert.KernelValue

end
-- ==== Proof.LibRowReduce.lean ====
/-
  A row's maximum and a row's sum, read at the row, on the extended reals.

  * A reduction of an `[a, b]` array over its second axis reads, at row `r`, the entries `(r, k)`, `k : Fin b`:
    a maximum as the fold of `max` from the starting value over them, a sum as their sum.
  * A host reduction of an `[a, b, c]` array over its last axis by `max` reads, at `(p, r)`, the fold of `max` from the
    initial value over the entries `(p, r, k)`, `k : Fin c`.

  Both folds are over `Finset.univ` of the reduced axis, so a kernel's row maximum and a reference's meet as one term.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.Lib

open Idealize.ShloMosaic Idealize.ShloMosaic.ValueIdx

/-- Over result row `r`, the source index with `k` on the reduced second axis is `(r, k)`. -/
theorem lift_row {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- A row maximum: the fold of `max` from the starting value over the row's entries. -/
theorem multiReduction_max_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ X acc h hφ hacc (ix1 r)
      = (Finset.univ : Finset (Fin b)).fold max (Ideal.ofBits φ acc) (fun k => X (ix2 r k)) := by
  refine (Ideal.multiReduction_maximumf_single X acc h hφ hacc (ix1 r)).trans ?_
  have e : (X ∘ h.lift (ix1 r)) = fun k : Fin b => X (ix2 r k) := funext fun k => congrArg X (lift_row h r k)
  rw [e]
  rfl

/-- A row sum: the sum of the row's entries. -/
theorem multiReduction_add_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ X acc h hφ hacc (ix1 r) = ∑ k : Fin b, X (ix2 r k) := by
  refine (Ideal.multiReduction_add_single X acc h hφ hacc (ix1 r)).trans ?_
  exact Finset.sum_congr rfl fun k _ => congrArg X (lift_row h r k)

/-- Over result index `(p, r)`, the source index with `k` on the reduced last axis is `(p, r, k)`. -/
theorem lift_last3 {a b c : ℕ} (h : (⟨3, ![a, b, c]⟩ : Shape).Reduces [2] ⟨2, ![a, b]⟩) (p : Fin a) (r : Fin b) (k : Fin c) :
    h.lift (ix2 p r) k = ix3 p r k := by
  funext d
  apply Fin.ext
  match d with
  | ⟨0, _⟩ => rfl
  | ⟨1, _⟩ => rfl
  | ⟨2, _⟩ => rfl

/-- A host maximum over the last axis of a rank-3 array: the fold of `max` from the initial value over that axis. -/
theorem hostReduce_max_last3 {a b c : ℕ} {φ : FTy} {u : Shape} (X : FVec Ideal ⟨3, ![a, b, c]⟩ φ) (init : FVec Ideal u φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (r : Fin b) :
    Host.reduce (FloatOps.maximumf (F := Ideal) (φ := φ)) X init h' hu (ix2 p r)
      = (Finset.univ : Finset (Fin c)).fold max (init (Shape.Idx.first hu)) (fun k => X (ix3 p r k)) := by
  refine (Host.reduce_eq_fold_single (FloatOps.maximumf (F := Ideal) (φ := φ)) X init h' h hu (ix2 p r)).trans ?_
  have e : (X ∘ h.lift (ix2 p r)) = fun k : Fin c => X (ix3 p r k) := funext fun k => congrArg X (lift_last3 h p r k)
  rw [e]
  rfl

end Cert.Lib

end
-- ==== Proof.LibKeepdims.lean ====
/-
  Two column ("keepdims") layout forms read at an index.

  * An `[a]` array cast to `[a, 1]` reads, at `(i, u)`, the operand at `i`, whatever the unit coordinate `u`.
  * An `[a, 1]` array broadcast to `[a, b]` reads, at `(p, c)`, the operand's one entry of row `p`.

  Together they are how a per-row quantity (a row's maximum, a row's sum) is spread back over the row.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.KernelHead.lean ====
/-
  What the kernel body leaves in its output block, read at an index.

  The body stores the whole output block once. Its value at `(r, c)`: on the last column the logistic function of the
  logit; elsewhere `t = tanh` of the logit, divided by the row's sum where `t` is positive. The row's sum runs over all 64
  columns of the entries kept by the mask "not the last column and positive", `0` elsewhere: the masked last term adds
  nothing, so it is the sum of the positive `tanh`s of the first 63 logits. The sum is cast to a column and spread back over
  the row before the division.
-/
import proofs.«169355_j33698313404512_2_alg».proof.Proof.Gen.KernelIdeal.Frame
import proofs.«169355_j33698313404512_2_alg».proof.Proof.KernelLogit
import proofs.«169355_j33698313404512_2_alg».proof.Proof.LibRowReduce
import proofs.«169355_j33698313404512_2_alg».proof.Proof.LibKeepdims

noncomputable section

open scoped BigOperators

namespace Cert.KernelValue

open Cert.KernelIdeal Cert.KernelIdeal.Gen Cert.Spec Cert.Lib
open Idealize.ShloMosaic Idealize.ShloMosaic.ValueIdx

theorem zero_offsets2 : (![0, 0] : Fin 2 → Nat) = fun _ => 0 := funext fun a => by fin_cases a <;> rfl
theorem zero_offsets1 : (![0] : Fin 1 → Nat) = fun _ => 0 := funext fun a => by fin_cases a; rfl

variable (x0 : Vec Ideal S4096x512 .f32) (x1 : Vec Ideal S512x400 .bf16) (x2 : Vec Ideal S400 .f32)
  (x3 : Vec Ideal S400x300 .bf16) (x4 : Vec Ideal S300 .f32) (x5 : Vec Ideal S300x64 .f32) (x6 : Vec Ideal S64 .f32)

/-- The one store covers the block, and the loads read whole buffers: the block is the store's payload of the inputs. -/
theorem out_eq :
    out0_7 (F := Ideal) x0 x1 x2 x3 x4 x5 x6
      = k0_pay1 k0_pay3 (k0_pay4 x0 x1 x2 x3 x4 x5 x6) (k0_pay5 x0 x1 x2 x3 x4 x5 x6) (k0_pay6 x0 x1 x2 x3 x4 x5 x6)
          (k0_pay7 x0 x1 x2 x3 x4 x5 x6) := by
  unfold out0_7
  rw [View.canon_unit_zero zero_offsets2]
  simp only [View.ld_unit_zero (S := S4096x512) zero_offsets2, View.ld_unit_zero (S := S512x400) zero_offsets2,
    View.ld_unit_zero (S := S400) zero_offsets1, View.ld_unit_zero (S := S400x300) zero_offsets2,
    View.ld_unit_zero (S := S300) zero_offsets1, View.ld_unit_zero (S := S300x64) zero_offsets2,
    View.ld_unit_zero (S := S64) zero_offsets1]

/-- The mask "not the last column and `tanh` positive". -/
def posMask : IVec S4096x64 1 :=
  andi (xori k0_pay3 (constantI S4096x64 1 1#1))
    (cmpf .ogt (tanh (k0_pay2 (F := Ideal) x0 x1 x2 x3 x4 x5 x6)) (broadcast S4096x64 (Scalar.ofBits (F := Ideal) .f32 0x00000000#32)))

/-- The rows' sums of the masked `tanh`s. -/
def rowSums : FVec Ideal S4096 .f32 :=
  multiReduction .add [1] S4096
    (select (posMask x0 x1 x2 x3 x4 x5 x6) (tanh (k0_pay2 (F := Ideal) x0 x1 x2 x3 x4 x5 x6))
      (broadcast S4096x64 (Scalar.ofBits (F := Ideal) .f32 0x00000000#32)))
    0x00000000#32 reduces_S4096x64_S4096 (.inl rfl) rfl

/-- The store's payload as the tree of vector operations. -/
theorem pay1_eq :
    k0_pay1 k0_pay3 (k0_pay4 (F := Ideal) x0 x1 x2 x3 x4 x5 x6) (k0_pay5 x0 x1 x2 x3 x4 x5 x6) (k0_pay6 x0 x1 x2 x3 x4 x5 x6)
        (k0_pay7 x0 x1 x2 x3 x4 x5 x6)
      = select k0_pay3 (logistic (k0_pay2 (F := Ideal) x0 x1 x2 x3 x4 x5 x6))
          (select (posMask x0 x1 x2 x3 x4 x5 x6)
            (divf (tanh (k0_pay2 (F := Ideal) x0 x1 x2 x3 x4 x5 x6))
              (broadcastTo S4096x64 (shapeCast S4096x1 (rowSums x0 x1 x2 x3 x4 x5 x6) shapeCasts_S4096_S4096x1)
                broadcasts_S4096x1_S4096x64))
            (tanh (k0_pay2 (F := Ideal) x0 x1 x2 x3 x4 x5 x6))) := rfl

/-- Row `r` of the body's logits. -/
abbrev blockLogits (r : Fin 4096) : Fin 64 → EReal := fun c => k0_pay2 (F := Ideal) x0 x1 x2 x3 x4 x5 x6 (ix2 r c)

/-- The mask at `(r, c)`. -/
theorem posMask_at (r : Fin 4096) (c : Fin 64) :
    posMask x0 x1 x2 x3 x4 x5 x6 (ix2 r c)
      = IntOp.andi (IntOp.xori (lastBit c) 1#1) (Ideal.cmp .ogt (Ideal.tanh (blockLogits x0 x1 x2 x3 x4 x5 x6 r c)) zero) := by
  show IntOp.andi (IntOp.xori (k0_pay3 (ix2 r c)) 1#1)
      (Ideal.cmp .ogt (Ideal.tanh (k0_pay2 (F := Ideal) x0 x1 x2 x3 x4 x5 x6 (ix2 r c))) zero) = _
  rw [lastMask_at]

/-- THE ROW'S SUM is the sum of the positive `tanh`s of the first 63 logits. -/
theorem rowSums_at (r : Fin 4096) :
    rowSums x0 x1 x2 x3 x4 x5 x6 (ix1 r) = posSum (blockLogits x0 x1 x2 x3 x4 x5 x6 r) := by
  unfold rowSums
  refine (multiReduction_add_row _ _ _ _ _ r).trans ?_
  have e : ∀ k : Fin 64,
      (select (posMask x0 x1 x2 x3 x4 x5 x6) (tanh (k0_pay2 (F := Ideal) x0 x1 x2 x3 x4 x5 x6))
        (broadcast S4096x64 (Scalar.ofBits (F := Ideal) .f32 0x00000000#32))) (ix2 r k)
      = Scalar.select (IntOp.andi (IntOp.xori (lastBit k) 1#1)
            (Ideal.cmp .ogt (Ideal.tanh (blockLogits x0 x1 x2 x3 x4 x5 x6 r k)) zero))
          (Ideal.tanh (blockLogits x0 x1 x2 x3 x4 x5 x6 r k)) zero := fun k => by
    rw [select_apply, posMask_at]
    rfl
  simp only [e]
  exact masked_row_sum fun c => Ideal.tanh (blockLogits x0 x1 x2 x3 x4 x5 x6 r c)

/-- THE OUTPUT BLOCK at `(r, c)` is the head of row `r`'s logits at `c`. -/
theorem out_at (r : Fin 4096) (c : Fin 64) :
    out0_7 (F := Ideal) x0 x1 x2 x3 x4 x5 x6 (ix2 r c) = head (blockLogits x0 x1 x2 x3 x4 x5 x6 r) c := by
  rw [out_eq, pay1_eq, select_apply, lastMask_at]
  unfold head
  by_cases hc : c.val = 63
  · have hb : lastBit c = 1#1 := by unfold lastBit; rw [if_pos hc]
    rw [if_pos hc, hb, select_one]
    rfl
  · have hb : lastBit c = 0#1 := by unfold lastBit; rw [if_neg hc]
    rw [if_neg hc, hb, select_zero, select_apply, posMask_at, hb, not_zero_and, divf_apply]
    have hs : broadcastTo S4096x64 (shapeCast S4096x1 (rowSums x0 x1 x2 x3 x4 x5 x6) shapeCasts_S4096_S4096x1)
        broadcasts_S4096x1_S4096x64 (ix2 r c) = rowSums x0 x1 x2 x3 x4 x5 x6 (ix1 r) :=
      (broadcastTo_a1_ab_apply _ broadcasts_S4096x1_S4096x64 r c).trans
        (shapeCast_a_a1_apply (rowSums x0 x1 x2 x3 x4 x5 x6) shapeCasts_S4096_S4096x1 r 0)
    rw [hs, rowSums_at]
    rfl

end Cert.KernelValue

end
-- ==== Proof.KernelArray.lean ====
/-
  From the blocks to the result array, and the kernel's run.

  Grid point `t` (of 32) stages rows `4096·t … 4096·t + 4095` of the input, the whole weight matrices and biases, and
  writes back rows `4096·t …` of the result. The weight matrices it stages were written by the host before the kernel
  starts: each is the transposed argument matrix (converted to a narrower float format, which on the extended reals is the
  identity), so its entry `(k, j)` is the argument's entry `(j, k)`. Hence what point `t` writes back is block `t` of the
  specification's result array of the ARGUMENT arrays; the 32 blocks cover the array (row `R` lies in the block of point
  `R / 4096`), so the array ends holding the specification's result.
-/
import proofs.«169355_j33698313404512_2_alg».proof.Proof.Gen.KernelIdeal.Frame
import proofs.«169355_j33698313404512_2_alg».proof.Proof.KernelHead
import Idealize.ShloMosaic.Lib.Pipeline.Value
import Idealize.ShloMosaic.Lib.ValueLayout
import Idealize.ShloMosaic.Lib.StableHlo.Run

set_option maxRecDepth 16384

noncomputable section

open scoped BigOperators

namespace Cert.KernelValue

open Cert.KernelIdeal Cert.KernelIdeal.Gen Cert.Spec Cert.Lib
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays the host wrote before the kernel starts -/

/-- The first staged weight matrix is the transposed first weight argument (in a narrower format). -/
theorem V_main_v1 (c : Dev nD) :
    V m c main_v1 = (truncf .bf16 (transpose S512x400 [1, 0] (m ((c : Thread nD τ).loc main_arg1))
      transposes_S400x512_S512x400_1_0 : FVec Ideal S512x400 .f32) bitsLt_bf16_f32 : FVec Ideal S512x400 .bf16) := by
  unfold V; after_results

/-- The second staged weight matrix is the transposed second weight argument (in a narrower format). -/
theorem V_main_v3 (c : Dev nD) :
    V m c main_v3 = (truncf .bf16 (transpose S400x300 [1, 0] (m ((c : Thread nD τ).loc main_arg3))
      transposes_S300x400_S400x300_1_0 : FVec Ideal S400x300 .f32) bitsLt_bf16_f32 : FVec Ideal S400x300 .bf16) := by
  unfold V; after_results

/-- The third staged weight matrix is the transposed third weight argument. -/
theorem V_main_v4 (c : Dev nD) :
    V m c main_v4 = (transpose S300x64 [1, 0] (m ((c : Thread nD τ).loc main_arg5))
      transposes_S64x300_S300x64_1_0 : FVec Ideal S300x64 .f32) := by
  unfold V; after_results

/-- Entry `(k, j)` of the first staged weight matrix is entry `(j, k)` of the argument. -/
theorem V_main_v1_at (c : Dev nD) (k : Fin 512) (j : Fin 400) :
    V m c main_v1 (ix2 k j) = m ((c : Thread nD τ).loc main_arg1) (ix2 j k) :=
  (congrFun (V_main_v1 m c) (ix2 k j)).trans
    (transpose_ix2_apply (m ((c : Thread nD τ).loc main_arg1)) transposes_S400x512_S512x400_1_0 k j)

theorem V_main_v3_at (c : Dev nD) (k : Fin 400) (j : Fin 300) :
    V m c main_v3 (ix2 k j) = m ((c : Thread nD τ).loc main_arg3) (ix2 j k) :=
  (congrFun (V_main_v3 m c) (ix2 k j)).trans
    (transpose_ix2_apply (m ((c : Thread nD τ).loc main_arg3)) transposes_S300x400_S400x300_1_0 k j)

theorem V_main_v4_at (c : Dev nD) (k : Fin 300) (j : Fin 64) :
    V m c main_v4 (ix2 k j) = m ((c : Thread nD τ).loc main_arg5) (ix2 j k) :=
  (congrFun (V_main_v4 m c) (ix2 k j)).trans
    (transpose_ix2_apply (m ((c : Thread nD τ).loc main_arg5)) transposes_S64x300_S300x64_1_0 k j)

/-! ## The windows' block indices, decided over the 32 grid points -/

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- Every block row of the result is some point's. -/
theorem idx_onto : ∀ q : Fin 32, ∃ t : Fin cfg0.N, win0_7.index t = ![q.val, 0] :=
  (by decide +kernel : ∀ q : Fin 32, ∃ t : Fin grid0.N, win0_7.index t = ![q.val, 0])

/-- Row `r` of point `t`'s block is row `4096·t + r` of the array. -/
def rowAt (t : Fin cfg0.N) (r : Fin 4096) : Fin 131072 :=
  ⟨t.val * 4096 + r.val, by have h1 := t.isLt; have h2 : cfg0.N = 32 := N_0; have h3 := r.isLt; omega⟩

/-! ## The input blocks, read at an index -/

theorem iblk0_at (c : Dev nD) (t : Fin cfg0.N) (r : Fin 4096) (k : Fin 512) :
    iblk m c 0 t (ix2 r k) = m ((c : Thread nD τ).loc main_arg0) (ix2 (rowAt t r) k) := by
  obtain ⟨e0, e1, -⟩ := idx_facts t
  show V m c main_arg0 (((cfg0.win 0).blk t).view.emb (ix2 r k)) = _
  rw [V_main_arg0]
  refine congrArg _ (funext fun a => Fin.ext ?_)
  match a with
  | ⟨0, _⟩ => show win0_0.index t (0 : Fin 2) * 4096 + 1 * r.val = t.val * 4096 + r.val; rw [e0]; omega
  | ⟨1, _⟩ => show win0_0.index t (1 : Fin 2) * 512 + 1 * k.val = k.val; rw [e1]; omega

theorem iblk1_at (c : Dev nD) (t : Fin cfg0.N) (k : Fin 512) (j : Fin 400) :
    iblk m c 1 t (ix2 k j) = m ((c : Thread nD τ).loc main_arg1) (ix2 j k) := by
  obtain ⟨-, -, e0, e1, -⟩ := idx_facts t
  show V m c main_v1 (((cfg0.win 1).blk t).view.emb (ix2 k j)) = _
  refine Eq.trans (congrArg _ (funext fun a => Fin.ext ?_)) (V_main_v1_at m c k j)
  match a with
  | ⟨0, _⟩ => show win0_1.index t (0 : Fin 2) * 512 + 1 * k.val = k.val; rw [e0]; omega
  | ⟨1, _⟩ => show win0_1.index t (1 : Fin 2) * 400 + 1 * j.val = j.val; rw [e1]; omega

theorem iblk2_at (c : Dev nD) (t : Fin cfg0.N) (j : Fin 400) :
    iblk m c 2 t (ix1 j) = m ((c : Thread nD τ).loc main_arg2) (ix1 j) := by
  obtain ⟨-, -, -, -, e0, -⟩ := idx_facts t
  show V m c main_arg2 (((cfg0.win 2).blk t).view.emb (ix1 j)) = _
  rw [V_main_arg2]
  refine congrArg _ (funext fun a => Fin.ext ?_)
  match a with
  | ⟨0, _⟩ => show win0_2.index t (0 : Fin 1) * 400 + 1 * j.val = j.val; rw [e0]; omega

theorem iblk3_at (c : Dev nD) (t : Fin cfg0.N) (k : Fin 400) (j : Fin 300) :
    iblk m c 3 t (ix2 k j) = m ((c : Thread nD τ).loc main_arg3) (ix2 j k) := by
  obtain ⟨-, -, -, -, -, e0, e1, -⟩ := idx_facts t
  show V m c main_v3 (((cfg0.win 3).blk t).view.emb (ix2 k j)) = _
  refine Eq.trans (congrArg _ (funext fun a => Fin.ext ?_)) (V_main_v3_at m c k j)
  match a with
  | ⟨0, _⟩ => show win0_3.index t (0 : Fin 2) * 400 + 1 * k.val = k.val; rw [e0]; omega
  | ⟨1, _⟩ => show win0_3.index t (1 : Fin 2) * 300 + 1 * j.val = j.val; rw [e1]; omega

theorem iblk4_at (c : Dev nD) (t : Fin cfg0.N) (j : Fin 300) :
    iblk m c 4 t (ix1 j) = m ((c : Thread nD τ).loc main_arg4) (ix1 j) := by
  obtain ⟨-, -, -, -, -, -, -, e0, -⟩ := idx_facts t
  show V m c main_arg4 (((cfg0.win 4).blk t).view.emb (ix1 j)) = _
  rw [V_main_arg4]
  refine congrArg _ (funext fun a => Fin.ext ?_)
  match a with
  | ⟨0, _⟩ => show win0_4.index t (0 : Fin 1) * 300 + 1 * j.val = j.val; rw [e0]; omega

theorem iblk5_at (c : Dev nD) (t : Fin cfg0.N) (k : Fin 300) (j : Fin 64) :
    iblk m c 5 t (ix2 k j) = m ((c : Thread nD τ).loc main_arg5) (ix2 j k) := by
  obtain ⟨-, -, -, -, -, -, -, -, e0, e1, -⟩ := idx_facts t
  show V m c main_v4 (((cfg0.win 5).blk t).view.emb (ix2 k j)) = _
  refine Eq.trans (congrArg _ (funext fun a => Fin.ext ?_)) (V_main_v4_at m c k j)
  match a with
  | ⟨0, _⟩ => show win0_5.index t (0 : Fin 2) * 300 + 1 * k.val = k.val; rw [e0]; omega
  | ⟨1, _⟩ => show win0_5.index t (1 : Fin 2) * 64 + 1 * j.val = j.val; rw [e1]; omega

theorem iblk6_at (c : Dev nD) (t : Fin cfg0.N) (j : Fin 64) :
    iblk m c 6 t (ix1 j) = m ((c : Thread nD τ).loc main_arg6) (ix1 j) := by
  obtain ⟨-, -, -, -, -, -, -, -, -, -, e0, -⟩ := idx_facts t
  show V m c main_arg6 (((cfg0.win 6).blk t).view.emb (ix1 j)) = _
  rw [V_main_arg6]
  refine congrArg _ (funext fun a => Fin.ext ?_)
  match a with
  | ⟨0, _⟩ => show win0_6.index t (0 : Fin 1) * 64 + 1 * j.val = j.val; rw [e0]; omega

/-! ## What a point writes back -/

/-- The specification's result array of the argument arrays as launched. -/
abbrev result (c : Dev nD) : Buf (Elt Ideal) ((c : Thread nD τ).loc main_v5) :=
  Cert.Spec.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- WHAT POINT `t` WRITES BACK is block `t` of the specification's result array. -/
theorem flushed_eq (c : Dev nD) (t : Fin cfg0.N) :
    (dats m 0 c).flushed 7 t = ((cfg0.win 7).blk t).view.read (Elt Ideal) (result m c) := by
  show (cfg0.win 7).cut (grid0.coords t) ((dats m 0 c).after 7 t) = _
  rw [after0_7]
  funext y
  obtain ⟨r, q, rfl⟩ : ∃ (r : Fin 4096) (q : Fin 64), y = ix2 r q := ⟨y 0, y 1, eq_ix2 y⟩
  show out0_7 (F := Ideal) (iblk m c 0 t) (iblk m c 1 t) (iblk m c 2 t) (iblk m c 3 t) (iblk m c 4 t) (iblk m c 5 t)
      (iblk m c 6 t) (ix2 r q) = result m c (((cfg0.win 7).blk t).view.emb (ix2 r q))
  have hemb : ((cfg0.win 7).blk t).view.emb (ix2 r q) = ix2 (rowAt t r) q := by
    obtain ⟨-, -, -, -, -, -, -, -, -, -, -, e0, e1⟩ := idx_facts t
    refine funext fun a => Fin.ext ?_
    match a with
    | ⟨0, _⟩ => show win0_7.index t (0 : Fin 2) * 4096 + 1 * r.val = t.val * 4096 + r.val; rw [e0]; omega
    | ⟨1, _⟩ => show win0_7.index t (1 : Fin 2) * 64 + 1 * q.val = q.val; rw [e1]; omega
  rw [hemb, out_at]
  show head _ q = head _ q
  refine congrArg (fun y => head y q) (funext fun c' => ?_)
  show k0_pay2 (F := Ideal) (iblk m c 0 t) (iblk m c 1 t) (iblk m c 2 t) (iblk m c 3 t) (iblk m c 4 t) (iblk m c 5 t)
      (iblk m c 6 t) (ix2 r c') = _
  rw [logits_at]
  simp only [iblk0_at, iblk1_at, iblk2_at, iblk3_at, iblk4_at, iblk5_at, iblk6_at]

/-! ## The blocks cover the array -/

/-- An index of the array is in point `t`'s block iff each coordinate is in the block's range on its axis. -/
theorem mem_blk (t : Fin cfg0.N) (i : S131072x64.Idx) :
    i ∈ ((cfg0.win 7).blk t).view.set ↔ ∀ a : Fin 2, win0_7.index t a * S4096x64.size a ≤ (i a).val
      ∧ (i a).val < win0_7.index t a * S4096x64.size a + S4096x64.size a := by
  show i ∈ ((View.whole main_v5).slice (win0_7.rect t)).set ↔ _
  rw [View.set_slice_whole, Rect.mem_set_unit]
  exact Iff.rfl

/-- Row `R` of the array lies in the block of point `R / 4096`. -/
theorem cover (i : S131072x64.Idx) :
    ∃ t : Fin cfg0.N, (cfg0.win 7).flush t = true ∧ i ∈ ((cfg0.win 7).blk t).view.set := by
  have hi0 : (i 0).val < 131072 := (i 0).isLt
  have hi1 : (i 1).val < 64 := (i 1).isLt
  obtain ⟨t, ht⟩ := idx_onto ⟨(i 0).val / 4096, by omega⟩
  have q0 : win0_7.index t (0 : Fin 2) = (i 0).val / 4096 := congrFun ht 0
  have q1 : win0_7.index t (1 : Fin 2) = 0 := congrFun ht 1
  refine ⟨t, flush0_7 t, ?_⟩
  rw [mem_blk]
  intro a
  match a with
  | ⟨0, _⟩ =>
    show win0_7.index t (0 : Fin 2) * 4096 ≤ (i 0).val ∧ (i 0).val < win0_7.index t (0 : Fin 2) * 4096 + 4096
    omega
  | ⟨1, _⟩ =>
    show win0_7.index t (1 : Fin 2) * 64 ≤ (i 1).val ∧ (i 1).val < win0_7.index t (1 : Fin 2) * 64 + 64
    omega

/-- THE RESULT ARRAY after the run is the specification's result of the argument arrays. -/
theorem final (c : Dev nD) : (dats m 0 c).arrAt 7 cfg0.N = result m c :=
  (dats m 0 c).arrAt_eq_of_cover 7 (result m c) (fun t _ => flushed_eq m c t) (cover)

/-! ## The run -/

/-- Every weakly fair execution of the kernel's program terminates with the result array at the specification's result of
    the argument arrays, and the argument arrays unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 7).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).1 6).trans (((dats m 0 c).arrAt_in 6 rfl _).trans ((A_eq m c 6).trans (V_main_arg6 m c)))⟩)
    (run_main m ρ)

end Cert.KernelValue

end
-- ==== Proof.lean ====
/-
  A three-layer perceptron with a normalising head, computed block by block, against the same network computed on whole arrays.

  Both programs map a row `x` of the input (131072 rows of 512 entries) through
  `h¹ = max(x·W₁ᵀ + b₁, 0)`, `h² = max(h¹·W₂ᵀ + b₂, 0)`, `y = h²·W₃ᵀ + b₃` (64 logits) and then through the head: the last
  entry of the result row is the logistic function of the last logit; each of the first 63 is `t = tanh y_c`, divided by the
  sum of the positive `tanh`s among the first 63 when `t` is positive, and `t` itself otherwise.

  The kernel works on 32 blocks of 4096 rows. It receives the weight matrices already transposed by the host, computes the
  three layers as matrix products into a zero accumulator, takes `tanh` and the logistic function of ALL 64 logits, masks
  the last column out of the row sum (so that sum runs over 64 terms, the last one `0`), and selects, column by column, the
  logistic value on the last column. The reference transposes the weights itself, cuts the logits into the first 63 columns
  and the last, sums 63 terms, writes the logistic function out as `1 / (1 + e^(-y))`, and joins the two parts.

  On the extended reals the two are one function of the arguments (Proof/Spec.lean's `G`): a change of float format is the
  identity; a matrix product into zero and the host's contraction are the same finite sum; the masked last term of the row
  sum is `0` and adding `0` changes nothing (the only law used, together with two facts about one-bit masks — none needs
  the inputs to be finite); and the logistic function IS that quotient. The reference's result is `G` by reading its
  operations one at a time (Proof/RefLogit.lean, Proof/RefHead.lean); what each grid point of the kernel writes back is a
  block of `G` (Proof/KernelLogit.lean, Proof/KernelHead.lean), and the 32 blocks cover the result array
  (Proof/KernelArray.lean). Nothing is rewritten between the kernel as printed and its idealization, so that claim is empty.
-/
import proofs.«169355_j33698313404512_2_alg».proof.Defs
import proofs.«169355_j33698313404512_2_alg».proof.Proof.Gen.Kernel
import proofs.«169355_j33698313404512_2_alg».proof.Proof.Gen.Kernel.Skeleton
import proofs.«169355_j33698313404512_2_alg».proof.Proof.Gen.Kernel.Launch
import proofs.«169355_j33698313404512_2_alg».proof.Proof.Gen.Kernel.Points
import proofs.«169355_j33698313404512_2_alg».proof.Proof.Gen.Kernel.Frame
import proofs.«169355_j33698313404512_2_alg».proof.Proof.Gen.KernelIdeal
import proofs.«169355_j33698313404512_2_alg».proof.Proof.Gen.KernelIdeal.Skeleton
import proofs.«169355_j33698313404512_2_alg».proof.Proof.Gen.KernelIdeal.Launch
import proofs.«169355_j33698313404512_2_alg».proof.Proof.Gen.KernelIdeal.Points
import proofs.«169355_j33698313404512_2_alg».proof.Proof.Gen.KernelIdeal.Frame
import proofs.«169355_j33698313404512_2_alg».proof.Proof.Gen.ReferenceIdeal
import proofs.«169355_j33698313404512_2_alg».proof.Proof.Gen.Pre_finite_inputs
import proofs.«169355_j33698313404512_2_alg».proof.Proof.Gen.ReferenceIdeal.Run
import proofs.«169355_j33698313404512_2_alg».proof.Proof.Gen.ReferenceIdeal.Read
import proofs.«169355_j33698313404512_2_alg».proof.Proof.RefHead
import proofs.«169355_j33698313404512_2_alg».proof.Proof.KernelArray
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- On the extended reals both programs end with the result array at `G` of their argument arrays, which agree. -/
theorem algebraic : Cert.algebraic_KernelIdeal_ReferenceIdeal := by
  intro m ρ m' ρ' _ hagree
  refine ⟨fun c => Cert.KernelValue.result m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.RefValue.result_eq_G, (hagree c).1, (hagree c).2.1, (hagree c).2.2.1,
    (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
